-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "margin_minus_one" .f32 0xBF5998DD#32 ((-57041779 / 67108864 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S20000x128 : Shape := ⟨2, ![20000, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_

variable [Facts]

def fn {F : FTy → Type} [FloatOps F] (main_arg0 : FVec F S8192x128 .f32) (main_arg1 : FVec F S20000x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  main_v8
-- ==== Kernel.lean ====
abbrev S8192x128 : Shape := ⟨2, ![8192, 128]⟩
abbrev S20000x128 : Shape := ⟨2, ![20000, 128]⟩
abbrev S8192 : Shape := ⟨1, ![8192]⟩
abbrev S_ : Shape := ⟨0, ![]⟩
abbrev S8192x1 : Shape := ⟨2, ![8192, 1]⟩
abbrev S1x1 : Shape := ⟨2, ![1, 1]⟩
abbrev S256x128 : Shape := ⟨2, ![256, 128]⟩
abbrev S4000x128 : Shape := ⟨2, ![4000, 128]⟩
abbrev S256x1 : Shape := ⟨2, ![256, 1]⟩
abbrev S256x4000 : Shape := ⟨2, ![256, 4000]⟩
abbrev S1x4000 : Shape := ⟨2, ![1, 4000]⟩
abbrev S256 : Shape := ⟨1, ![256]⟩
abbrev S1 : Shape := ⟨1, ![1]⟩

abbrev nBuf : Space → Nat
  | .hbm => 34
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S20000x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x128, .bf16⟩
  | .hbm, ⟨29, _⟩ => ⟨S20000x128, .bf16⟩
  | .hbm, ⟨30, _⟩ => ⟨S8192x1, .i32⟩
  | .hbm, ⟨31, _⟩ => ⟨S8192x1, .f32⟩
  | .hbm, ⟨32, _⟩ => ⟨S1x1, .f32⟩
  | .hbm, ⟨33, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S4000x128, .bf16⟩
  | .local _ .vmem, ⟨3, _⟩ => ⟨S4000x128, .bf16⟩
  | .local _ .vmem, ⟨4, _⟩ => ⟨S256x1, .i32⟩
  | .local _ .vmem, ⟨5, _⟩ => ⟨S256x1, .i32⟩
  | .local _ .vmem, ⟨6, _⟩ => ⟨S256x1, .f32⟩
  | .local _ .vmem, ⟨7, _⟩ => ⟨S256x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![5, 32], ![false, false]⟩

def k0_cond2 (i : grid0.Coords) : BitVec 1 :=
  let arg0 : BitVec 32 := BitVec.ofNat 32 (i 0).val
  let c4_i32 : BitVec 32 := 4#32
  let v50 : BitVec 1 := Scalar.cmpi .eq arg0 c4_i32
  let arg1 : BitVec 32 := BitVec.ofNat 32 (i 1).val
  let c31_i32 : BitVec 32 := 31#32
  let v51 : BitVec 1 := Scalar.cmpi .eq arg1 c31_i32
  let v52 : BitVec 1 := Scalar.andi v50 v51
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192 : S_.BroadcastsInDim S8192 (![] : Fin 0 → Fin S8192.rank)
  bitsLt_bf16_f32 : FTy.bits .bf16 < FTy.bits .f32
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x4000_d1_w32 : S1x4000.Iotas .tc 32 [1]
  broadcasts_S256x1_S256x4000 : S256x1.Broadcasts S256x4000
  broadcasts_S1x4000_S256x4000 : S1x4000.Broadcasts S256x4000
  reduces_S256x4000_S256 : S256x4000.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  gather_S20000x128_S8192x1_S8192x128_1_0_n_n_0_1_1128_wf : GatherDims.WF S20000x128 S8192x1 S8192x128 [1] [0] [] [0] [] 1 ![1, 128]
  dot_S256x128_S4000x128_S256x4000_1_1_0_0_n_n_wf : DotDims.WF S256x128 S4000x128 S256x4000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S20000x128.size a
  hwx0_1 : ∀ i : grid0.Coords, EltTy.bits .bf16 = 32 ∨ (Rect.block (s := S20000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S20000x128_S8192x1_S8192x128_1_0_n_n_0_1_1128 : GatherDims S20000x128 S8192x1 S8192x128 where
  offsetDims := [1]
  collapsedSliceDims := [0]
  operandBatchingDims := []
  startIndicesBatchingDims := []
  startIndexMap := [0]
  indexVectorDim := 1
  sliceSizes := ![1, 128]
  wf := gather_S20000x128_S8192x1_S8192x128_1_0_n_n_0_1_1128_wf
def dot_S256x128_S4000x128_S256x4000_1_1_0_0_n_n : DotDims S256x128 S4000x128 S256x4000 where
  lhsContracting := [1]
  rhsContracting := [1]
  lhsNonContracting := [0]
  rhsNonContracting := [0]
  lhsBatch := []
  rhsBatch := []
  wf := dot_S256x128_S4000x128_S256x4000_1_1_0_0_n_n_wf

abbrev win0_0 : Pipeline.Window sig grid0 :=
  Pipeline.Window.ofSpec (Memref.whole main_v16) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S20000x128 : Shape := ⟨2, ![20000, 128]⟩
abbrev S8192 : Shape := ⟨1, ![8192]⟩
abbrev S_ : Shape := ⟨0, ![]⟩
abbrev S8192x1 : Shape := ⟨2, ![8192, 1]⟩
abbrev S8192x20000 : Shape := ⟨2, ![8192, 20000]⟩
abbrev S20000 : Shape := ⟨1, ![20000]⟩
abbrev S1x20000 : Shape := ⟨2, ![1, 20000]⟩

abbrev nBuf : Space → Nat
  | .hbm => 59
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S20000x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x20000, .f32⟩
  | .hbm, ⟨29, _⟩ => ⟨S_, .f32⟩
  | .hbm, ⟨30, _⟩ => ⟨S8192x20000, .f32⟩
  | .hbm, ⟨31, _⟩ => ⟨S8192x20000, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x20000, .f32⟩
  | .hbm, ⟨37, _⟩ => ⟨S8192x20000, .f32⟩
  | .hbm, ⟨38, _⟩ => ⟨S20000, .i32⟩
  | .hbm, ⟨39, _⟩ => ⟨S8192x1, .i32⟩
  | .hbm, ⟨40, _⟩ => ⟨S1x20000, .i32⟩
  | .hbm, ⟨41, _⟩ => ⟨S8192x20000, .i32⟩
  | .hbm, ⟨42, _⟩ => ⟨S8192x20000, .i32⟩
  | .hbm, ⟨43, _⟩ => ⟨S8192x20000, .i1⟩
  | .hbm, ⟨44, _⟩ => ⟨S_, .f32⟩
  | .hbm, ⟨45, _⟩ => ⟨S8192x20000, .f32⟩
  | .hbm, ⟨46, _⟩ => ⟨S8192x20000, .i1⟩
  | .hbm, ⟨47, _⟩ => ⟨S8192x20000, .i1⟩
  | .hbm, ⟨48, _⟩ => ⟨S8192x20000, .f32⟩
  | .hbm, ⟨49, _⟩ => ⟨S_, .f32⟩
  | .hbm, ⟨50, _⟩ => ⟨S_, .f32⟩
  | .hbm, ⟨51, _⟩ => ⟨S8192x20000, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192 : S_.BroadcastsInDim S8192 (![] : Fin 0 → Fin S8192.rank)
  bcast_S_S8192x20000 : S_.BroadcastsInDim S8192x20000 (![] : Fin 0 → Fin S8192x20000.rank)
  bcast_S8192x1_S8192x20000_0_1 : S8192x1.BroadcastsInDim S8192x20000 (![0, 1] : Fin 2 → Fin S8192x20000.rank)
  bcast_S20000_S1x20000_1 : S20000.BroadcastsInDim S1x20000 (![1] : Fin 1 → Fin S1x20000.rank)
  bcast_S1x20000_S8192x20000_0_1 : S1x20000.BroadcastsInDim S8192x20000 (![0, 1] : Fin 2 → Fin S8192x20000.rank)
  reducesTo_S8192x20000_S_d0_1 : S8192x20000.ReducesTo [0, 1] S_
  gather_S20000x128_S8192x1_S8192x128_1_0_n_n_0_1_1128_wf : GatherDims.WF S20000x128 S8192x1 S8192x128 [1] [0] [] [0] [] 1 ![1, 128]
  dot_S8192x128_S20000x128_S8192x20000_1_1_0_0_n_n_wf : DotDims.WF S8192x128 S20000x128 S8192x20000 [1] [1] [0] [0] [] []

variable [Facts₀]

def gather_S20000x128_S8192x1_S8192x128_1_0_n_n_0_1_1128 : GatherDims S20000x128 S8192x1 S8192x128 where
  offsetDims := [1]
  collapsedSliceDims := [0]
  operandBatchingDims := []
  startIndicesBatchingDims := []
  startIndexMap := [0]
  indexVectorDim := 1
  sliceSizes := ![1, 128]
  wf := gather_S20000x128_S8192x1_S8192x128_1_0_n_n_0_1_1128_wf
def dot_S8192x128_S20000x128_S8192x20000_1_1_0_0_n_n : DotDims S8192x128 S20000x128 S8192x20000 where
  lhsContracting := [1]
  rhsContracting := [1]
  lhsNonContracting := [0]
  rhsNonContracting := [0]
  lhsBatch := []
  rhsBatch := []
  wf := dot_S8192x128_S20000x128_S8192x20000_1_1_0_0_n_n_wf

class Facts : Prop extends Facts₀ where

variable [Facts]
-- ==== Proof.KCases.lean ====
/-
  What each of the body's three control cases leaves behind, as values.

  The first grid point zeroes the two accumulators and then adds its tile's sums to them; every later point adds its
  tile's sums to what the point before left; the last point, after adding, also writes the quotient into the output block.
  The accumulators are one-element buffers, each stored whole, so what a case leaves in one is the value of its last store.
-/
import proofs.«148868_j20684562497828_1_alg».proof.Proof.Gen.KernelIdeal.Frame
import Idealize.ShloMosaic.Lib.Pipeline.Value
import Idealize.ShloMosaic.Lib.Tactic

noncomputable section

namespace Cert.KCases

open Idealize.ShloMosaic Idealize.ShloMosaic.TcCoe Idealize.SL.Sem Cert.KernelIdeal Cert.KernelIdeal.Gen

variable {F : FTy → Type} [FloatOps F] [Named F]

theorem hz : (![0, 0] : Fin 2 → Nat) = fun _ => 0 := funext fun a => by fin_cases a <;> rfl

/-- First point, loss accumulator: zero plus the tile's counted loss. -/
theorem lossAcc_first (c : Dev nD) (i : grid0.Coords) (a2 : Memref sig .tc .vmem S256x128 .bf16) (h2 : a2.IsWhole) (a3 : Memref sig .tc .vmem S4000x128 .bf16) (h3 : a3.IsWhole) (a4 : Memref sig .tc .vmem S256x1 .i32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 : Vec F S256x128 .bf16) (x1 : Vec F S4000x128 .bf16) (x2 : Vec F S256x1 .i32) (x3 : Vec F S256x1 .f32) :
    sout0_A_0 c i a2 h2 a3 h3 a4 h4 a5 h5 a6 h6 a7 h7 a8 h8 hc0 hc1 x0 x1 x2 x3 = k0_pay1 (k0_pay8 i x0 x1 x2 x3) (k0_pay4 (F := F)) := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h7.read_unread, h8.read_unread,
    View.ld_unit_zero (S := S256x128) hz, View.ld_unit_zero (S := S4000x128) hz, View.ld_unit_zero (S := S256x1) hz,
    View.ld_unit_zero (S := S1x1) hz]

/-- First point, count accumulator: zero plus the tile's count. -/
theorem countAcc_first (c : Dev nD) (i : grid0.Coords) (a2 : Memref sig .tc .vmem S256x128 .bf16) (h2 : a2.IsWhole) (a3 : Memref sig .tc .vmem S4000x128 .bf16) (h3 : a3.IsWhole) (a4 : Memref sig .tc .vmem S256x1 .i32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : cond0_0 i) (hc1 : ¬cond0_1 i) (x0 : Vec F S256x128 .bf16) (x1 : Vec F S4000x128 .bf16) (x2 : Vec F S256x1 .i32) (x3 : Vec F S256x1 .f32) :
    sout0_A_1 c i a2 h2 a3 h3 a4 h4 a5 h5 a6 h6 a7 h7 a8 h8 hc0 hc1 x0 x1 x2 x3 = k0_pay2 (k0_pay9 i x0 x1 x2 x3) (k0_pay5 (F := F)) := by
  unfold sout0_A_1
  rw [View.read_writes_eq_canon _ _ _ (scover0_A_1 c i a2 h2 a3 h3 a4 h4 a5 h5 a6 h6 a7 h7 a8 h8 hc0 hc1 x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h7.read_unread, h8.read_unread,
    View.ld_unit_zero (S := S256x128) hz, View.ld_unit_zero (S := S4000x128) hz, View.ld_unit_zero (S := S256x1) hz,
    View.ld_unit_zero (S := S1x1) hz]

/-- A middle point, loss accumulator: what the point before left plus the tile's counted loss. -/
theorem lossAcc_mid (c : Dev nD) (i : grid0.Coords) (a2 : Memref sig .tc .vmem S256x128 .bf16) (h2 : a2.IsWhole) (a3 : Memref sig .tc .vmem S4000x128 .bf16) (h3 : a3.IsWhole) (a4 : Memref sig .tc .vmem S256x1 .i32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 : Vec F S256x128 .bf16) (x1 : Vec F S4000x128 .bf16) (x2 : Vec F S256x1 .i32) (x3 : Vec F S256x1 .f32) (xs0 xs1 : Vec F S1x1 .f32) :
    sout0_B_0 c i a2 h2 a3 h3 a4 h4 a5 h5 a6 h6 a7 h7 a8 h8 hc0 hc1 x0 x1 x2 x3 xs0 xs1 = k0_pay1 (k0_pay8 i x0 x1 x2 x3) xs0 := by
  unfold sout0_B_0
  rw [View.read_writes_eq_canon _ _ _ (scover0_B_0 c i a2 h2 a3 h3 a4 h4 a5 h5 a6 h6 a7 h7 a8 h8 hc0 hc1 x0 x1 x2 x3 xs0 xs1)]
  unfold kernelRun0_B
  dsimp only
  sl_unfold_words
  rw [View.canon_unit_zero hz]
  simp only [View.readAt_eq_ld, h2.read_unread, h3.read_unread, h4.read_unread, h5.read_unread, h7.read_unread, h8.read_unread,
    View.ld_unit_zero (S := S256x128) hz, View.ld_unit_zero (S := S4000x128) hz, View.ld_unit_zero (S := S256x1) hz,
    View.ld_unit_zero (S := S1x1) hz]

/-- A middle point, count accumulator. -/
theorem countAcc_mid (c : Dev nD) (i : grid0.Coords) (a2 : Memref sig .tc .vmem S256x128 .bf16) (h2 : a2.IsWhole) (a3 : Memref sig .tc .vmem S4000x128 .bf16) (h3 : a3.IsWhole) (a4 : Memref sig .tc .vmem S256x1 .i32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : ¬cond0_1 i) (x0 : Vec F S256x128 .bf16) (x1 : Vec F S4000x128 .bf16) (x2 : Vec F S256x1 .i32) (x3 : Vec F S256x1 .f32) (xs0 xs1 : Vec F S1x1 .f32) :
    sout0_B_1 c i a2 h2 a3 h3 a4 h4 a5 h5 a6 h6 a7 h7 a8 h8 hc0 hc1 x0 x1 x2 x3 xs0 xs1 = k0_pay2 (k0_pay9 i x0 x1 x2 x3) xs1 := by
  unfold sout0_B_1
  rw [View.read_writes_eq_canon _ _ _ (scover0_B_1 c i a2 h2 a3 h3 a4 h4 a5 h5 a6 h6 a7 h7 a8 h8 hc0 hc1 x0 x1 x2 x3 xs0 xs1)]
  unfold kernelRun0_B
  dsimp only
  sl_unfold_words
  rw [View.canon_unit_zero hz]
  simp only [View.readAt_eq_ld, h2.read_unread, h3.read_unread, h4.read_unread, h5.read_unread, h7.read_unread, h8.read_unread,
    View.ld_unit_zero (S := S256x128) hz, View.ld_unit_zero (S := S4000x128) hz, View.ld_unit_zero (S := S256x1) hz,
    View.ld_unit_zero (S := S1x1) hz]

/-- The last point, loss accumulator. -/
theorem lossAcc_last (c : Dev nD) (i : grid0.Coords) (a2 : Memref sig .tc .vmem S256x128 .bf16) (h2 : a2.IsWhole) (a3 : Memref sig .tc .vmem S4000x128 .bf16) (h3 : a3.IsWhole) (a4 : Memref sig .tc .vmem S256x1 .i32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S256x128 .bf16) (x1 : Vec F S4000x128 .bf16) (x2 : Vec F S256x1 .i32) (x3 : Vec F S256x1 .f32) (xs0 xs1 : Vec F S1x1 .f32) :
    sout0_C_0 c i a2 h2 a3 h3 a4 h4 a5 h5 a6 h6 a7 h7 a8 h8 hc0 hc1 x0 x1 x2 x3 xs0 xs1 = k0_pay1 (k0_pay8 i x0 x1 x2 x3) xs0 := by
  unfold sout0_C_0
  rw [View.read_writes_eq_canon _ _ _ (scover0_C_0 c i a2 h2 a3 h3 a4 h4 a5 h5 a6 h6 a7 h7 a8 h8 hc0 hc1 x0 x1 x2 x3 xs0 xs1)]
  unfold kernelRun0_C
  dsimp only
  sl_unfold_words
  rw [View.canon_unit_zero hz]
  simp only [View.readAt_eq_ld, h2.read_unread, h3.read_unread, h4.read_unread, h5.read_unread, h7.read_unread, h8.read_unread,
    View.ld_unit_zero (S := S256x128) hz, View.ld_unit_zero (S := S4000x128) hz, View.ld_unit_zero (S := S256x1) hz,
    View.ld_unit_zero (S := S1x1) hz]

/-- The last point, count accumulator. -/
theorem countAcc_last (c : Dev nD) (i : grid0.Coords) (a2 : Memref sig .tc .vmem S256x128 .bf16) (h2 : a2.IsWhole) (a3 : Memref sig .tc .vmem S4000x128 .bf16) (h3 : a3.IsWhole) (a4 : Memref sig .tc .vmem S256x1 .i32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S256x128 .bf16) (x1 : Vec F S4000x128 .bf16) (x2 : Vec F S256x1 .i32) (x3 : Vec F S256x1 .f32) (xs0 xs1 : Vec F S1x1 .f32) :
    sout0_C_1 c i a2 h2 a3 h3 a4 h4 a5 h5 a6 h6 a7 h7 a8 h8 hc0 hc1 x0 x1 x2 x3 xs0 xs1 = k0_pay2 (k0_pay9 i x0 x1 x2 x3) xs1 := by
  unfold sout0_C_1
  rw [View.read_writes_eq_canon _ _ _ (scover0_C_1 c i a2 h2 a3 h3 a4 h4 a5 h5 a6 h6 a7 h7 a8 h8 hc0 hc1 x0 x1 x2 x3 xs0 xs1)]
  unfold kernelRun0_C
  dsimp only
  sl_unfold_words
  rw [View.canon_unit_zero hz]
  simp only [View.readAt_eq_ld, h2.read_unread, h3.read_unread, h4.read_unread, h5.read_unread, h7.read_unread, h8.read_unread,
    View.ld_unit_zero (S := S256x128) hz, View.ld_unit_zero (S := S4000x128) hz, View.ld_unit_zero (S := S256x1) hz,
    View.ld_unit_zero (S := S1x1) hz]

/-- The last point's output block: the quotient of the two accumulators as that point leaves them (or zero). -/
theorem out_last (c : Dev nD) (i : grid0.Coords) (a2 : Memref sig .tc .vmem S256x128 .bf16) (h2 : a2.IsWhole) (a3 : Memref sig .tc .vmem S4000x128 .bf16) (h3 : a3.IsWhole) (a4 : Memref sig .tc .vmem S256x1 .i32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc0 : ¬cond0_0 i) (hc1 : cond0_1 i) (x0 : Vec F S256x128 .bf16) (x1 : Vec F S4000x128 .bf16) (x2 : Vec F S256x1 .i32) (x3 : Vec F S256x1 .f32) (xs0 xs1 : Vec F S1x1 .f32) :
    out0_C_4 c i a2 h2 a3 h3 a4 h4 a5 h5 a6 h6 a7 h7 a8 h8 hc0 hc1 x0 x1 x2 x3 xs0 xs1 = k0_pay3 (k0_pay2 (k0_pay9 i x0 x1 x2 x3) xs1) (k0_pay1 (k0_pay8 i x0 x1 x2 x3) xs0) := by
  unfold out0_C_4
  rw [View.read_writes_eq_canon _ _ _ (cover0_C_4 c i a2 h2 a3 h3 a4 h4 a5 h5 a6 h6 a7 h7 a8 h8 hc0 hc1 x0 x1 x2 x3 xs0 xs1)]
  unfold kernelRun0_C
  dsimp only
  sl_unfold_words
  rw [View.canon_unit_zero hz, View.readCov_unit_zero (S := S1x1) _ hz, View.readCov_unit_zero (S := S1x1) _ hz]
  simp only [View.readAt_eq_ld, h2.read_unread, h3.read_unread, h4.read_unread, h5.read_unread, h7.read_unread, h8.read_unread,
    View.ld_unit_zero (S := S256x128) hz, View.ld_unit_zero (S := S4000x128) hz, View.ld_unit_zero (S := S256x1) hz,
    View.ld_unit_zero (S := S1x1) hz]

end Cert.KCases

end
-- ==== Proof.Consts.lean ====
/-
  The three literals the two programs' loss formulas differ in, read at the extended reals, and the law that joins them.

  The reference computes  loss = (M + pos) − (1 − s)  with M the binary32 word 0x3E199C8D = 10067085 / 2²⁶ and 1 the word
  0x3F800000. The kernel folds the two constants into one, loss = (κ + pos) + s, and its table gives that constant the
  value κ = M − 1 = −57041779 / 2²⁶. Addition on the extended reals is commutative and associative, and negation
  distributes over a difference whose first term is a real number, so the two formulas agree for every pos and s, the
  infinities included.
-/
import proofs.«148868_j20684562497828_1_alg».proof.KernelIdeal
import Idealize.ShloMosaic.PureOps.Ideal
import Idealize.ShloMosaic.PureOps.Ideal.Laws
import Idealize.ShloMosaic.PureOps.IdealRules

noncomputable section

namespace Cert.Consts

open Idealize.ShloMosaic

/-- The folded constant's value. -/
abbrev kap : EReal := ((-57041779 / 67108864 : ℝ) : EReal)

/-- The kernel's named constant denotes `M − 1`, by the certificate's table. -/
theorem named_kap : Named.named (F := Ideal) Cert.KernelIdeal.κ "margin_minus_one" (φ := .f32) 0xBF5998DD#32 = kap :=
  IdealRules.named_const.ideal_named_scalar _ _ _ _ rfl

/-- The reference's margin word is the dyadic 10067085 / 2²⁶. -/
theorem ofBits_margin : Ideal.ofBits .f32 0x3E199C8D#32 = ((10067085 / 67108864 : ℝ) : EReal) := by
  simp [Ideal.ofBits, Ideal.ieee, -EReal.coe_mul]; norm_num

/-- The word of 1.0 is 1. -/
theorem ofBits_one : Ideal.ofBits .f32 0x3F800000#32 = 1 := by
  simp [Ideal.ofBits, Ideal.ieee, -EReal.coe_mul]; norm_num

/-- κ is `M − 1`. -/
theorem kap_eq : kap = ((10067085 / 67108864 : ℝ) : EReal) + -1 := by
  rw [show (-(1 : EReal)) = ((-1 : ℝ) : EReal) by rw [EReal.coe_neg, EReal.coe_one], ← EReal.coe_add]
  exact congrArg Real.toEReal (by norm_num)

theorem one_ne_bot : (1 : EReal) ≠ ⊥ := by rw [← EReal.coe_one]; exact EReal.coe_ne_bot 1
theorem one_ne_top : (1 : EReal) ≠ ⊤ := by rw [← EReal.coe_one]; exact EReal.coe_ne_top 1

/-- `(κ + p) + s = (M + p) − (1 − s)` on the extended reals. -/
theorem fold_law (p s : EReal) :
    (kap + p) + s = (((10067085 / 67108864 : ℝ) : EReal) + p) - (1 - s) := by
  rw [sub_eq_add_neg (((10067085 / 67108864 : ℝ) : EReal) + p), EReal.neg_sub (Or.inl one_ne_bot) (Or.inl one_ne_top),
    add_add_add_comm, add_assoc, kap_eq]

end Cert.Consts

end
-- ==== Proof.KTile.lean ====
/-
  One grid point's arithmetic, read entry by entry on the extended reals.

  At a grid point the body holds a 256 × 128 block `x0` of normalised feature rows, a 4000 × 128 block `x1` of class
  centres, the 256 rows' label words `x2` and their own-centre distances `x3`. For row p and column q of the tile it forms
    loss p q  = (κ + x3 p) + Σₖ x0 p k · x1 q k,
    valid p q = 1 when the label of row p is not the class the column stands for (column q of column tile i₀ is class
                4000·i₀ + q) and loss p q > 0, else 0,
  sums  loss·valid  and  valid  over the tile, and adds the two sums to two running accumulators; the last point divides.
-/
import proofs.«148868_j20684562497828_1_alg».proof.Proof.Gen.KernelIdeal.Skeleton
import proofs.«148868_j20684562497828_1_alg».proof.Proof.Consts
import Idealize.ShloMosaic.Lib.Pipeline.Value
import Idealize.ShloMosaic.Lib.ValueIdx
import Idealize.ShloMosaic.PureOps.Ideal.Laws

noncomputable section

namespace Cert.KTile

open Idealize.ShloMosaic Idealize.ShloMosaic.ValueIdx Cert.KernelIdeal Cert.KernelIdeal.Gen Cert.Consts

variable (i : grid0.Coords) (x0 : Vec Ideal S256x128 .bf16) (x1 : Vec Ideal S4000x128 .bf16)
  (x2 : Vec Ideal S256x1 .i32) (x3 : Vec Ideal S256x1 .f32)

/-- The class word column `q` of column tile `i 0` stands for, as the body computes it: the lane number plus 4000 times the tile's number. -/
def colWord (q : Fin 4000) : BitVec 32 := IntOp.addi (BitVec.ofNat 32 q.val) (Scalar.muli (BitVec.ofNat 32 (i 0).val) 4000#32)

/-- It is the word of the class number `4000·i₀ + q`. -/
theorem colWord_eq (q : Fin 4000) : colWord i q = BitVec.ofNat 32 ((i 0).val * 4000 + q.val) := by
  unfold colWord IntOp.addi Scalar.muli IntOp.muli
  rw [BitVec.ofNat_add, BitVec.ofNat_mul, BitVec.add_comm]

/-- The loss of row `p` against column `q` of the tile. -/
def tLoss (p : Fin 256) (q : Fin 4000) : EReal :=
  (kap + (x3 (ix2 p (0 : Fin 1)) : EReal)) + ∑ k : Fin 128, (x0 (ix2 p k) : EReal) * (x1 (ix2 q k) : EReal)

/-- Whether the entry counts. -/
def tValid (p : Fin 256) (q : Fin 4000) : EReal :=
  Scalar.select (IntOp.andi (IntOp.cmpi .ne (x2 (ix2 p (0 : Fin 1))) (colWord i q)) (Ideal.cmp .ogt (tLoss x0 x1 x3 p q) 0)) 1 0

/-- The product's left operand is read at (row of the output, contraction coordinate), -/
theorem lhs_row (j : S256x4000.Idx) (r : dot_S256x128_S4000x128_S256x4000_1_1_0_0_n_n.contr.Idx) : (dot_S256x128_S4000x128_S256x4000_1_1_0_0_n_n.lhsIdx j r 0).val = (j 0).val := by
  unfold DotDims.lhsIdx
  rw [dif_neg (show ¬(0 : Fin S256x128.rank) ∈ dot_S256x128_S4000x128_S256x4000_1_1_0_0_n_n.lhsBatch by decide), dif_pos (show (0 : Fin S256x128.rank) ∈ dot_S256x128_S4000x128_S256x4000_1_1_0_0_n_n.lhsNonContracting by decide)]
  rfl
theorem lhs_contr (j : S256x4000.Idx) (r : dot_S256x128_S4000x128_S256x4000_1_1_0_0_n_n.contr.Idx) : (dot_S256x128_S4000x128_S256x4000_1_1_0_0_n_n.lhsIdx j r 1).val = (r ⟨0, by decide⟩).val :=
  dot_S256x128_S4000x128_S256x4000_1_1_0_0_n_n.lhsIdx_val_of_single rfl j r
/-- and its right operand at (column of the output, contraction coordinate): the centres' block enters transposed. -/
theorem rhs_row (j : S256x4000.Idx) (r : dot_S256x128_S4000x128_S256x4000_1_1_0_0_n_n.contr.Idx) : (dot_S256x128_S4000x128_S256x4000_1_1_0_0_n_n.rhsIdx j r 0).val = (j 1).val := by
  unfold DotDims.rhsIdx
  rw [dif_neg (show ¬(0 : Fin S4000x128.rank) ∈ dot_S256x128_S4000x128_S256x4000_1_1_0_0_n_n.rhsBatch by decide), dif_pos (show (0 : Fin S4000x128.rank) ∈ dot_S256x128_S4000x128_S256x4000_1_1_0_0_n_n.rhsNonContracting by decide)]
  rfl
theorem rhs_contr (j : S256x4000.Idx) (r : dot_S256x128_S4000x128_S256x4000_1_1_0_0_n_n.contr.Idx) : (dot_S256x128_S4000x128_S256x4000_1_1_0_0_n_n.rhsIdx j r 1).val = (r ⟨0, by decide⟩).val :=
  dot_S256x128_S4000x128_S256x4000_1_1_0_0_n_n.rhsIdx_val_of_single rfl j r

/-- The matrix product of the two blocks, the second transposed, at (p, q): the sum over the 128 shared coordinates. -/
theorem matmul_tile (p : Fin 256) (q : Fin 4000) :
    FloatOps.matmul (F := Ideal) (φ₁ := .bf16) (φ₂ := .bf16) dot_S256x128_S4000x128_S256x4000_1_1_0_0_n_n none x0 x1 (constant S256x4000 .f32 0x00000000#32) (ix2 p q)
      = ∑ k : Fin 128, (x0 (ix2 p k) : EReal) * (x1 (ix2 q k) : EReal) := by
  rw [Ideal.matmul_constant_zero_apply, ← Equiv.sum_comp (contrEquiv1 dot_S256x128_S4000x128_S256x4000_1_1_0_0_n_n 128 rfl rfl).symm]
  refine Finset.sum_congr rfl fun k _ => ?_
  have hk := contrEquiv1_symm_val dot_S256x128_S4000x128_S256x4000_1_1_0_0_n_n 128 rfl rfl k
  have el : dot_S256x128_S4000x128_S256x4000_1_1_0_0_n_n.lhsIdx (ix2 p q) ((contrEquiv1 dot_S256x128_S4000x128_S256x4000_1_1_0_0_n_n 128 rfl rfl).symm k) = ix2 p k :=
    funext fun a => Fin.ext (by
      match a with
      | ⟨0, _⟩ => exact lhs_row _ _
      | ⟨1, _⟩ => exact (lhs_contr _ _).trans hk)
  have er : dot_S256x128_S4000x128_S256x4000_1_1_0_0_n_n.rhsIdx (ix2 p q) ((contrEquiv1 dot_S256x128_S4000x128_S256x4000_1_1_0_0_n_n 128 rfl rfl).symm k) = ix2 q k :=
    funext fun a => Fin.ext (by
      match a with
      | ⟨0, _⟩ => exact rhs_row _ _
      | ⟨1, _⟩ => exact (rhs_contr _ _).trans hk)
  rw [el, er]

/-- The tile of losses at (p, q). -/
theorem pay6_apply (p : Fin 256) (q : Fin 4000) :
    k0_pay6 (F := Ideal) x0 x1 x3 (ix2 p q) = tLoss x0 x1 x3 p q := by
  unfold k0_pay6 tLoss
  simp only [shapeCast_self, matmul]
  rw [addf_apply, matmul_tile]
  refine congrArg (· + _) ?_
  refine (broadcastTo_apply _ broadcasts_S256x1_S256x4000 (ix2 p q) (ix2 p (0 : Fin 1)) (fun a => by
    match a with
    | ⟨0, _⟩ => rfl
    | ⟨1, _⟩ => rfl)).trans ?_
  rw [addf_apply, broadcast_apply, named_kap]

/-- The tile of counts at (p, q). -/
theorem pay7_apply (p : Fin 256) (q : Fin 4000) :
    k0_pay7 (F := Ideal) i x0 x1 x2 x3 (ix2 p q) = tValid i x0 x1 x2 x3 p q := by
  unfold k0_pay7 tValid
  simp only [shapeCast_self]
  rw [select_apply]
  have e22 : broadcastTo S256x4000 x2 broadcasts_S256x1_S256x4000 (ix2 p q) = x2 (ix2 p (0 : Fin 1)) :=
    broadcastTo_apply _ broadcasts_S256x1_S256x4000 (ix2 p q) (ix2 p (0 : Fin 1)) (fun a => by
      match a with
      | ⟨0, _⟩ => rfl
      | ⟨1, _⟩ => rfl)
  have e23 : broadcastTo S256x4000 (addi (iota .tc S1x4000 32 [1] iota_S1x4000_d1_w32) (broadcast S1x4000 (Scalar.muli (BitVec.ofNat 32 (i 0).val) 4000#32))) broadcasts_S1x4000_S256x4000 (ix2 p q) = colWord i q := by
    refine (broadcastTo_apply _ broadcasts_S1x4000_S256x4000 (ix2 p q) (ix2 (0 : Fin 1) q) (fun a => by
      match a with
      | ⟨0, _⟩ => rfl
      | ⟨1, _⟩ => rfl)).trans ?_
    show IntOp.addi (iota .tc S1x4000 32 [1] iota_S1x4000_d1_w32 (ix2 (0 : Fin 1) q)) _ = _
    rw [iota_single_apply]
    rfl
  show Scalar.select (IntOp.andi (IntOp.cmpi .ne (broadcastTo S256x4000 x2 broadcasts_S256x1_S256x4000 (ix2 p q)) (broadcastTo S256x4000 (addi (iota .tc S1x4000 32 [1] iota_S1x4000_d1_w32) (broadcast S1x4000 (Scalar.muli (BitVec.ofNat 32 (i 0).val) 4000#32))) broadcasts_S1x4000_S256x4000 (ix2 p q)))
      (Ideal.cmp .ogt (k0_pay6 (F := Ideal) x0 x1 x3 (ix2 p q)) (Ideal.ofBits .f32 0x00000000#32))) (Ideal.ofBits .f32 0x3F800000#32) (Ideal.ofBits .f32 0x00000000#32) = _
  rw [e22, e23, pay6_apply, Ideal.ofBits_zero_f32, ofBits_one]

/-- A row of the tile summed along its 4000 columns: row `p`'s counted loss. -/
theorem pay8_apply (p : Fin 256) :
    k0_pay8 (F := Ideal) i x0 x1 x2 x3 (ix2 p (0 : Fin 1)) = ∑ q : Fin 4000, tLoss x0 x1 x3 p q * tValid i x0 x1 x2 x3 p q := by
  unfold k0_pay8
  refine (shapeCast_apply _ shapeCasts_S256_S256x1 (ix2 p (0 : Fin 1)) (ix1 p) (by rw [Shape.rowMajor_val_one, Shape.rowMajor_val_two]; show p.val = p.val * 1 + 0; omega)).trans ?_
  refine (Ideal.multiReduction_add_single _ _ reduces_S256x4000_S256 _ _ (ix1 p)).trans ?_
  show (∑ q : Fin 4000, _) = _
  refine Finset.sum_congr rfl fun q _ => ?_
  have e : reduces_S256x4000_S256.lift (ix1 p) q = ix2 p q := funext fun a => Fin.ext (by
    match a with
    | ⟨0, _⟩ => rfl
    | ⟨1, _⟩ => rfl)
  rw [e, mulf_apply, pay6_apply, pay7_apply]

/-- The tile's count: its 256 rows' counts summed. -/
theorem pay9_apply :
    k0_pay9 (F := Ideal) i x0 x1 x2 x3 (ix1 (0 : Fin 1)) = ∑ p : Fin 256, ∑ q : Fin 4000, tValid i x0 x1 x2 x3 p q := by
  unfold k0_pay9
  refine (Ideal.multiReduction_add_single _ _ reduces_S256x1_S1 _ _ (ix1 (0 : Fin 1))).trans ?_
  show (∑ p : Fin 256, _) = _
  refine Finset.sum_congr rfl fun p _ => ?_
  have e : reduces_S256x1_S1.lift (ix1 (0 : Fin 1)) p = ix2 p (0 : Fin 1) := funext fun a => Fin.ext (by
    match a with
    | ⟨0, _⟩ => rfl
    | ⟨1, _⟩ => rfl)
  rw [e]
  refine (shapeCast_apply _ shapeCasts_S256_S256x1 (ix2 p (0 : Fin 1)) (ix1 p) (by rw [Shape.rowMajor_val_one, Shape.rowMajor_val_two]; show p.val = p.val * 1 + 0; omega)).trans ?_
  refine (Ideal.multiReduction_add_single _ _ reduces_S256x4000_S256 _ _ (ix1 p)).trans ?_
  show (∑ q : Fin 4000, _) = _
  refine Finset.sum_congr rfl fun q _ => ?_
  have e' : reduces_S256x4000_S256.lift (ix1 p) q = ix2 p q := funext fun a => Fin.ext (by
    match a with
    | ⟨0, _⟩ => rfl
    | ⟨1, _⟩ => rfl)
  rw [e', pay7_apply]

/-- The loss accumulator's new contents: the old contents plus the 256 row sums. -/
theorem pay1_apply (v35 : FVec Ideal S256x1 .f32) (v40 : Vec Ideal S1x1 .f32) :
    k0_pay1 (F := Ideal) v35 v40 (ix2 (0 : Fin 1) (0 : Fin 1)) = (v40 (ix2 (0 : Fin 1) (0 : Fin 1)) : EReal) + ∑ p : Fin 256, (v35 (ix2 p (0 : Fin 1)) : EReal) := by
  unfold k0_pay1
  simp only [shapeCast_self]
  rw [addf_apply]
  refine congrArg (_ + ·) ?_
  refine (shapeCast_apply _ shapeCasts_S1_S1x1 (ix2 (0 : Fin 1) (0 : Fin 1)) (ix1 (0 : Fin 1)) (by rw [Shape.rowMajor_val_one, Shape.rowMajor_val_two]; rfl)).trans ?_
  refine (Ideal.multiReduction_add_single _ _ reduces_S256x1_S1 _ _ (ix1 (0 : Fin 1))).trans ?_
  show (∑ p : Fin 256, _) = _
  refine Finset.sum_congr rfl fun p _ => ?_
  exact congrArg v35 (funext fun a => Fin.ext (by
    match a with
    | ⟨0, _⟩ => rfl
    | ⟨1, _⟩ => rfl))

/-- The count accumulator's new contents: the old contents plus the tile's count. -/
theorem pay2_apply (v36 : FVec Ideal S1 .f32) (v45 : Vec Ideal S1x1 .f32) :
    k0_pay2 (F := Ideal) v36 v45 (ix2 (0 : Fin 1) (0 : Fin 1)) = (v45 (ix2 (0 : Fin 1) (0 : Fin 1)) : EReal) + (v36 (ix1 (0 : Fin 1)) : EReal) := by
  unfold k0_pay2
  simp only [shapeCast_self]
  rw [addf_apply]
  refine congrArg (_ + ·) ?_
  exact shapeCast_apply _ shapeCasts_S1_S1x1 (ix2 (0 : Fin 1) (0 : Fin 1)) (ix1 (0 : Fin 1)) (by rw [Shape.rowMajor_val_one, Shape.rowMajor_val_two]; rfl)

/-- What the last point writes out: the mean, or zero when nothing counted. -/
theorem pay3_apply (v55 v56 : Vec Ideal S1x1 .f32) :
    k0_pay3 (F := Ideal) v55 v56 (ix2 (0 : Fin 1) (0 : Fin 1))
      = Scalar.select (Ideal.cmp .ogt (v55 (ix2 (0 : Fin 1) (0 : Fin 1)) : EReal) 0)
          (Ideal.div (v56 (ix2 (0 : Fin 1) (0 : Fin 1)) : EReal) (v55 (ix2 (0 : Fin 1) (0 : Fin 1)) : EReal)) 0 := by
  unfold k0_pay3
  show Scalar.select (Ideal.cmp .ogt (v55 (ix2 (0 : Fin 1) (0 : Fin 1))) (Ideal.ofBits .f32 0x00000000#32))
    (Ideal.div (v56 (ix2 (0 : Fin 1) (0 : Fin 1))) (v55 (ix2 (0 : Fin 1) (0 : Fin 1)))) (Ideal.ofBits .f32 0x00000000#32) = _
  rw [Ideal.ofBits_zero_f32]

/-- The accumulators' reset value. -/
theorem pay4_apply : k0_pay4 (F := Ideal) (ix2 (0 : Fin 1) (0 : Fin 1)) = (0 : EReal) := by
  unfold k0_pay4
  simp only [shapeCast_self]
  show Ideal.ofBits .f32 0x00000000#32 = 0
  exact Ideal.ofBits_zero_f32

theorem pay5_apply : k0_pay5 (F := Ideal) (ix2 (0 : Fin 1) (0 : Fin 1)) = (0 : EReal) := by
  unfold k0_pay5
  simp only [shapeCast_self]
  show Ideal.ofBits .f32 0x00000000#32 = 0
  exact Ideal.ofBits_zero_f32

end Cert.KTile

end
-- ==== Proof.GridSums.lean ====
/-
  Sums over a tiled rectangle, and running sums along a sequence of tiles.

  A B×C rectangle of extended reals (B = 8192 rows, C = 20000 columns) is swept by a 5 × 32 grid of 256 × 4000
  tiles, the column tile moving slowest: tile `t` covers rows `(t % 32)·256 …` and columns `(t / 32)·4000 …`.
  Addition in a commutative monoid does not care how a finite sum is cut, so the sum of the per-tile sums is
  the sum over the whole rectangle.
-/
import Idealize.ShloMosaic.PureOps.Ideal

namespace Cert.GridSums

open Finset

variable {M : Type*} [AddCommMonoid M]

/-- The row of the rectangle that row `p` of tile `t` is. -/
def rowAt (t : Fin 160) (p : Fin 256) : Fin 8192 :=
  ⟨(t.val % 32) * 256 + p.val, by have := p.isLt; have : t.val % 32 < 32 := Nat.mod_lt _ (by norm_num); omega⟩

/-- The column of the rectangle that column `q` of tile `t` is. -/
def colAt (t : Fin 160) (q : Fin 4000) : Fin 20000 :=
  ⟨(t.val / 32) * 4000 + q.val, by have := q.isLt; have := t.isLt; omega⟩

/-- A sum over `Fin (m * n)` taken block by block. -/
theorem sum_blocks (m n : ℕ) (f : Fin (m * n) → M) :
    ∑ b : Fin (m * n), f b = ∑ i : Fin m, ∑ j : Fin n, f (finProdFinEquiv (i, j)) := by
  rw [← Fintype.sum_prod_type']
  exact (Equiv.sum_comp finProdFinEquiv f).symm

/-- The tiles' sums add up to the rectangle's. -/
theorem sum_tiles (g : Fin 8192 → Fin 20000 → M) :
    ∑ t : Fin 160, ∑ p : Fin 256, ∑ q : Fin 4000, g (rowAt t p) (colAt t q) = ∑ b : Fin 8192, ∑ c : Fin 20000, g b c := by
  have hT := sum_blocks 5 32 (fun t : Fin (5 * 32) => ∑ p : Fin 256, ∑ q : Fin 4000, g (rowAt t p) (colAt t q))
  have hB := fun c : Fin 20000 => sum_blocks 32 256 (fun b : Fin (32 * 256) => g b c)
  have hC := fun b : Fin 8192 => sum_blocks 5 4000 (fun c : Fin (5 * 4000) => g b c)
  calc ∑ t : Fin 160, ∑ p : Fin 256, ∑ q : Fin 4000, g (rowAt t p) (colAt t q)
      = ∑ ci : Fin 5, ∑ bi : Fin 32, ∑ p : Fin 256, ∑ q : Fin 4000,
          g (finProdFinEquiv (bi, p)) (finProdFinEquiv (ci, q)) := by
        refine hT.trans (Finset.sum_congr rfl fun ci _ => Finset.sum_congr rfl fun bi _ =>
          Finset.sum_congr rfl fun p _ => Finset.sum_congr rfl fun q _ => ?_)
        have hci := ci.isLt; have hbi := bi.isLt
        congr 1
        · apply Fin.ext
          show ((bi.val + 32 * ci.val) % 32) * 256 + p.val = p.val + 256 * bi.val
          rw [Nat.add_mul_mod_self_left, Nat.mod_eq_of_lt hbi]; omega
        · apply Fin.ext
          show ((bi.val + 32 * ci.val) / 32) * 4000 + q.val = q.val + 4000 * ci.val
          rw [Nat.add_mul_div_left _ _ (by norm_num : 0 < 32), Nat.div_eq_of_lt hbi]; omega
    _ = ∑ bi : Fin 32, ∑ p : Fin 256, ∑ ci : Fin 5, ∑ q : Fin 4000,
          g (finProdFinEquiv (bi, p)) (finProdFinEquiv (ci, q)) := by
        rw [Finset.sum_comm]
        exact Finset.sum_congr rfl fun bi _ => Finset.sum_comm
    _ = ∑ b : Fin 8192, ∑ c : Fin 20000, g b c := by
        rw [sum_blocks 32 256 (fun b : Fin (32 * 256) => ∑ c : Fin 20000, g b c)]
        exact Finset.sum_congr rfl fun bi _ => Finset.sum_congr rfl fun p _ => (hC _).symm

/-- The running sum of the first `n + 1` terms of a sequence of `N` terms (terms past the end count as zero). -/
def upTo {N : ℕ} (f : Fin N → M) (n : ℕ) : M := ∑ k ∈ range (n + 1), if h : k < N then f ⟨k, h⟩ else 0

theorem upTo_zero {N : ℕ} (f : Fin N → M) (h : 0 < N) : upTo f 0 = f ⟨0, h⟩ := by
  unfold upTo; rw [Finset.sum_range_one, dif_pos h]

theorem upTo_succ {N : ℕ} (f : Fin N → M) (n : ℕ) (h : n + 1 < N) : upTo f (n + 1) = upTo f n + f ⟨n + 1, h⟩ := by
  unfold upTo; rw [Finset.sum_range_succ _ (n + 1), dif_pos h]

/-- After the last term the running sum is the whole sum. -/
theorem upTo_last {N : ℕ} (f : Fin N → M) (n : ℕ) (h : n + 1 = N) : upTo f n = ∑ t : Fin N, f t := by
  subst h
  unfold upTo
  rw [← Fin.sum_univ_eq_sum_range (fun k => if h : k < n + 1 then f ⟨k, h⟩ else 0) (n + 1)]
  exact Finset.sum_congr rfl fun t _ => dif_pos t.isLt

/-- A sum over `Fin N` is the sum over `Fin K` when `N = K`. -/
theorem sum_cast {N K : ℕ} (h : K = N) (f : Fin N → M) : ∑ t : Fin N, f t = ∑ t : Fin K, f (t.cast h) :=
  (Equiv.sum_comp (finCongr h) f).symm

end Cert.GridSums
-- ==== Proof.KInv.lean ====
/-
  The two accumulators after each grid point, and the output block after the last.

  The body adds its tile's counted loss and its tile's count to two one-element accumulators that live across the grid;
  the first point starts them at zero. So after point n they hold the sums of the first n + 1 tiles' contributions
  (induction on the point), and the last point's output block is their quotient.
-/
import proofs.«148868_j20684562497828_1_alg».proof.Proof.KCases
import proofs.«148868_j20684562497828_1_alg».proof.Proof.KTile
import proofs.«148868_j20684562497828_1_alg».proof.Proof.GridSums

noncomputable section

namespace Cert.KInv

open Idealize.ShloMosaic Idealize.ShloMosaic.TcCoe Idealize.SL.Sem Idealize.ShloMosaic.ValueIdx
open Cert.KernelIdeal Cert.KernelIdeal.Gen Cert.KTile Cert.KCases Cert.GridSums

variable (m : (ℓ : Loc nD τ sig) → Buf (Elt Ideal) ℓ)

/-- The one index of a one-element block. -/
abbrev o : S1x1.Idx := ix2 (0 : Fin 1) (0 : Fin 1)

theorem eq_o (j : S1x1.Idx) : j = o := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- Point `t`'s tile: its counted loss, -/
def tileT (c : Dev nD) (t : Fin cfg0.N) : EReal :=
  ∑ p : Fin 256, ∑ q : Fin 4000, tLoss (iblk m c 0 t) (iblk m c 1 t) (iblk m c 3 t) p q
    * tValid (grid0.coords t) (iblk m c 0 t) (iblk m c 1 t) (iblk m c 2 t) (iblk m c 3 t) p q

/-- and its count. -/
def tileC (c : Dev nD) (t : Fin cfg0.N) : EReal :=
  ∑ p : Fin 256, ∑ q : Fin 4000, tValid (grid0.coords t) (iblk m c 0 t) (iblk m c 1 t) (iblk m c 2 t) (iblk m c 3 t) p q

/-- What a point adds to the loss accumulator is its tile's counted loss. -/
theorem rows_eq (c : Dev nD) (t : Fin cfg0.N) :
    ∑ p : Fin 256, ((k0_pay8 (grid0.coords t) (iblk m c 0 t) (iblk m c 1 t) (iblk m c 2 t) (iblk m c 3 t)) (ix2 p (0 : Fin 1)) : EReal) = tileT m c t :=
  Finset.sum_congr rfl fun p _ => pay8_apply (grid0.coords t) (iblk m c 0 t) (iblk m c 1 t) (iblk m c 2 t) (iblk m c 3 t) p

/-- The first point. -/
theorem at_first (c : Dev nD) (t : Fin cfg0.N) (h0 : t.val % 160 = 0) (h1 : ¬t.val % 160 = 159) :
    (outsAt0 m c t.val t.isLt).2.1 = k0_pay1 (k0_pay8 (grid0.coords t) (iblk m c 0 t) (iblk m c 1 t) (iblk m c 2 t) (iblk m c 3 t)) (k0_pay4 (F := Ideal))
    ∧ (outsAt0 m c t.val t.isLt).2.2 = k0_pay2 (k0_pay9 (grid0.coords t) (iblk m c 0 t) (iblk m c 1 t) (iblk m c 2 t) (iblk m c 3 t)) (k0_pay5 (F := Ideal)) := by
  rw [outsAt0_A m c t h0 h1]
  exact ⟨lossAcc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    countAcc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- A middle point. -/
theorem at_mid (c : Dev nD) (t : Fin cfg0.N) (h0 : ¬t.val % 160 = 0) (h1 : ¬t.val % 160 = 159) :
    (outsAt0 m c t.val t.isLt).2.1 = k0_pay1 (k0_pay8 (grid0.coords t) (iblk m c 0 t) (iblk m c 1 t) (iblk m c 2 t) (iblk m c 3 t)) (outsAt0 m c (t.val - 1) (Nat.lt_of_le_of_lt (Nat.sub_le _ _) t.isLt)).2.1
    ∧ (outsAt0 m c t.val t.isLt).2.2 = k0_pay2 (k0_pay9 (grid0.coords t) (iblk m c 0 t) (iblk m c 1 t) (iblk m c 2 t) (iblk m c 3 t)) (outsAt0 m c (t.val - 1) (Nat.lt_of_le_of_lt (Nat.sub_le _ _) t.isLt)).2.2 := by
  rw [outsAt0_B m c t h0 h1]
  exact ⟨lossAcc_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    countAcc_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- The last point: the accumulators as at a middle point, and the output block. -/
theorem at_last (c : Dev nD) (t : Fin cfg0.N) (h0 : ¬t.val % 160 = 0) (h1 : t.val % 160 = 159) :
    (outsAt0 m c t.val t.isLt).1 = k0_pay3 (k0_pay2 (k0_pay9 (grid0.coords t) (iblk m c 0 t) (iblk m c 1 t) (iblk m c 2 t) (iblk m c 3 t)) (outsAt0 m c (t.val - 1) (Nat.lt_of_le_of_lt (Nat.sub_le _ _) t.isLt)).2.2) (k0_pay1 (k0_pay8 (grid0.coords t) (iblk m c 0 t) (iblk m c 1 t) (iblk m c 2 t) (iblk m c 3 t)) (outsAt0 m c (t.val - 1) (Nat.lt_of_le_of_lt (Nat.sub_le _ _) t.isLt)).2.1)
    ∧ (outsAt0 m c t.val t.isLt).2.1 = k0_pay1 (k0_pay8 (grid0.coords t) (iblk m c 0 t) (iblk m c 1 t) (iblk m c 2 t) (iblk m c 3 t)) (outsAt0 m c (t.val - 1) (Nat.lt_of_le_of_lt (Nat.sub_le _ _) t.isLt)).2.1
    ∧ (outsAt0 m c t.val t.isLt).2.2 = k0_pay2 (k0_pay9 (grid0.coords t) (iblk m c 0 t) (iblk m c 1 t) (iblk m c 2 t) (iblk m c 3 t)) (outsAt0 m c (t.val - 1) (Nat.lt_of_le_of_lt (Nat.sub_le _ _) t.isLt)).2.2 := by
  rw [outsAt0_C m c t h0 h1]
  exact ⟨out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    lossAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    countAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- After any point but the first, each accumulator is what the point before left plus the point's tile. -/
theorem at_later (c : Dev nD) (t : Fin cfg0.N) (h0 : ¬t.val % 160 = 0) :
    (outsAt0 m c t.val t.isLt).2.1 = k0_pay1 (k0_pay8 (grid0.coords t) (iblk m c 0 t) (iblk m c 1 t) (iblk m c 2 t) (iblk m c 3 t)) (outsAt0 m c (t.val - 1) (Nat.lt_of_le_of_lt (Nat.sub_le _ _) t.isLt)).2.1
    ∧ (outsAt0 m c t.val t.isLt).2.2 = k0_pay2 (k0_pay9 (grid0.coords t) (iblk m c 0 t) (iblk m c 1 t) (iblk m c 2 t) (iblk m c 3 t)) (outsAt0 m c (t.val - 1) (Nat.lt_of_le_of_lt (Nat.sub_le _ _) t.isLt)).2.2 := by
  by_cases h1 : t.val % 160 = 159
  · exact (at_last m c t h0 h1).2
  · exact at_mid m c t h0 h1

/-- THE RUNNING SUMS: after point `n` the loss accumulator holds the first `n + 1` tiles' counted losses and the count
    accumulator their counts. -/
theorem acc_eq (c : Dev nD) : ∀ (n : ℕ) (hn : n < cfg0.N),
    ((outsAt0 m c n hn).2.1 o : EReal) = upTo (tileT m c) n ∧ ((outsAt0 m c n hn).2.2 o : EReal) = upTo (tileC m c) n
  | 0, hn => by
    obtain ⟨e1, e2⟩ := at_first m c ⟨0, hn⟩ (Nat.zero_mod _) (by show ¬(0 : ℕ) % 160 = 159; decide)
    refine ⟨?_, ?_⟩
    · rw [upTo_zero _ hn]
      refine (congrFun e1 o).trans ?_
      rw [pay1_apply, pay4_apply, zero_add]
      exact rows_eq m c ⟨0, hn⟩
    · rw [upTo_zero _ hn]
      refine (congrFun e2 o).trans ?_
      rw [pay2_apply, pay5_apply, zero_add]
      exact pay9_apply (grid0.coords ⟨0, hn⟩) (iblk m c 0 ⟨0, hn⟩) (iblk m c 1 ⟨0, hn⟩) (iblk m c 2 ⟨0, hn⟩) (iblk m c 3 ⟨0, hn⟩)
  | n + 1, hn => by
    have hN : cfg0.N = 160 := N_0
    have h0 : ¬(⟨n + 1, hn⟩ : Fin cfg0.N).val % 160 = 0 := by dsimp only; omega
    obtain ⟨e1, e2⟩ := at_later m c ⟨n + 1, hn⟩ h0
    obtain ⟨i1, i2⟩ := acc_eq c n (Nat.lt_of_succ_lt hn)
    refine ⟨?_, ?_⟩
    · rw [upTo_succ _ n hn]
      refine (congrFun e1 o).trans ?_
      rw [pay1_apply]
      exact congrArg₂ (· + ·) i1 (rows_eq m c ⟨n + 1, hn⟩)
    · rw [upTo_succ _ n hn]
      refine (congrFun e2 o).trans ?_
      rw [pay2_apply]
      exact congrArg₂ (· + ·) i2 (pay9_apply (grid0.coords ⟨n + 1, hn⟩) (iblk m c 0 ⟨n + 1, hn⟩) (iblk m c 1 ⟨n + 1, hn⟩) (iblk m c 2 ⟨n + 1, hn⟩) (iblk m c 3 ⟨n + 1, hn⟩))

/-- The whole grid's counted loss and count. -/
def gridT (c : Dev nD) : EReal := ∑ t : Fin cfg0.N, tileT m c t
def gridC (c : Dev nD) : EReal := ∑ t : Fin cfg0.N, tileC m c t

/-- The mean the last point writes. -/
def mean (c : Dev nD) : EReal := Scalar.select (Ideal.cmp .ogt (gridC m c) 0) (Ideal.div (gridT m c) (gridC m c)) 0

/-- THE OUTPUT BLOCK after the last point: the quotient of the two grid sums (or zero). -/
theorem out_eq (c : Dev nD) (t : Fin cfg0.N) (h : t.val % 160 = 159) :
    (outsAt0 m c t.val t.isLt).1 = fun _ => mean m c := by
  have hN : cfg0.N = 160 := N_0
  have ht : t.val = 159 := by have := t.isLt; omega
  have h0 : ¬t.val % 160 = 0 := by omega
  obtain ⟨e, e1, e2⟩ := at_last m c t h0 h
  obtain ⟨i1, i2⟩ := acc_eq m c t.val t.isLt
  rw [e1] at i1
  rw [e2] at i2
  funext j
  rw [eq_o j]
  refine (congrFun e o).trans ?_
  rw [pay3_apply, i1, i2]
  unfold mean gridT gridC
  rw [upTo_last (tileT m c) t.val (by omega), upTo_last (tileC m c) t.val (by omega)]

end Cert.KInv

end
-- ==== Proof.Spec.lean ====
/-
  The loss both programs compute, as one function of four tables:
    fn  b k   the unit-normalised feature row b (8192 rows of 128),
    ctr c k   the class centre c (20000 rows of 128),
    lab b     row b's label word,
    pos b     row b's distance to its own centre.
  For row b and class c the margin loss is  κ + pos b + ⟨fn b, ctr c⟩; an entry counts when c is not b's label and its
  loss is positive; the result is the mean loss over the counted entries, or 0 when there are none.
-/
import proofs.«148868_j20684562497828_1_alg».proof.Proof.Consts
import proofs.«148868_j20684562497828_1_alg».proof.Proof.GridSums
import Idealize.ShloMosaic.Lib.ValueIdx

noncomputable section

namespace Cert.Spec

open Idealize.ShloMosaic Cert.Consts

variable (fn : Fin 8192 → Fin 128 → EReal) (ctr : Fin 20000 → Fin 128 → EReal) (lab : Fin 8192 → BitVec 32)
  (pos : Fin 8192 → EReal)

/-- The margin loss of row `b` against class `c`. -/
def loss (b : Fin 8192) (c : Fin 20000) : EReal := (kap + pos b) + ∑ k : Fin 128, fn b k * ctr c k

/-- One when class `c` is not row `b`'s label and the loss is positive, else zero. -/
def valid (b : Fin 8192) (c : Fin 20000) : EReal :=
  Scalar.select (IntOp.andi (IntOp.cmpi .ne (lab b) (BitVec.ofNat 32 c.val)) (Ideal.cmp .ogt (loss fn ctr pos b c) 0)) 1 0

/-- How many entries count. -/
def count : EReal := ∑ b : Fin 8192, ∑ c : Fin 20000, valid fn ctr lab pos b c

/-- The counted entries' losses, summed. -/
def total : EReal := ∑ b : Fin 8192, ∑ c : Fin 20000, loss fn ctr pos b c * valid fn ctr lab pos b c

/-- Their mean, or zero when nothing counts. -/
def result : EReal :=
  Scalar.select (Ideal.cmp .ogt (count fn ctr lab pos) 0) (Ideal.div (total fn ctr lab pos) (count fn ctr lab pos)) 0

end Cert.Spec

end
-- ==== Proof.KBlocks.lean ====
/-
  From blocks to arrays: the grid's sums are the whole rectangle's.

  At grid point t (column tile t / 32, row tile t % 32) the four input windows hold rows (t % 32)·256 … of the normalised
  features, of the labels and of the own-centre distances, and rows (t / 32)·4000 … of the centres. So row p, column q of
  point t's tile is entry (row (t % 32)·256 + p, class (t / 32)·4000 + q) of the 8192 × 20000 rectangle of losses, the
  class word the body compares a label with is that class's number, and the tiles' sums add up to the rectangle's.
-/
import proofs.«148868_j20684562497828_1_alg».proof.Proof.KInv
import proofs.«148868_j20684562497828_1_alg».proof.Proof.Spec

noncomputable section

namespace Cert.KBlocks

open Idealize.ShloMosaic Idealize.ShloMosaic.TcCoe Idealize.SL.Sem Idealize.ShloMosaic.ValueIdx
open Cert.KernelIdeal Cert.KernelIdeal.Gen Cert.KTile Cert.KInv Cert.GridSums

variable (m : (ℓ : Loc nD τ sig) → Buf (Elt Ideal) ℓ)

/-- The four tables the kernel's region reads, entry by entry: the arrays its windows stage, as the region finds them. -/
def fnK (c : Dev nD) (b : Fin 8192) (k : Fin 128) : EReal := (V m c main_v16 : S8192x128.Idx → EReal) (ix2 b k)
def ctrK (c : Dev nD) (cl : Fin 20000) (k : Fin 128) : EReal := (V m c main_v17 : S20000x128.Idx → EReal) (ix2 cl k)
def labK (c : Dev nD) (b : Fin 8192) : BitVec 32 := (V m c main_v18 : S8192x1.Idx → BitVec 32) (ix2 b (0 : Fin 1))
def posK (c : Dev nD) (b : Fin 8192) : EReal := (V m c main_v19 : S8192x1.Idx → EReal) (ix2 b (0 : Fin 1))

/-- Where each window's block sits at point `t`, and the column tile's number: decided once over the 160 points. -/
theorem idx_facts : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val % 32 ∧ win0_2.index t (1 : Fin 2) = 0
    ∧ win0_3.index t (0 : Fin 2) = t.val % 32 ∧ win0_3.index t (1 : Fin 2) = 0
    ∧ (grid0.coords t 0).val = t.val / 32 :=
  (by decide +kernel : ∀ t : Fin grid0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val % 32 ∧ win0_2.index t (1 : Fin 2) = 0
    ∧ win0_3.index t (0 : Fin 2) = t.val % 32 ∧ win0_3.index t (1 : Fin 2) = 0
    ∧ (grid0.coords t 0).val = t.val / 32)

/-- Point `t` as one of the 160 tiles. -/
abbrev tl (t : Fin cfg0.N) : Fin 160 := t.cast N_0

/-- The feature block at point `t` is rows `(t % 32)·256 …` of the normalised features. -/
theorem blk_fn (c : Dev nD) (t : Fin cfg0.N) (p : Fin 256) (k : Fin 128) :
    (iblk m c 0 t : Vec Ideal S256x128 .bf16) (ix2 p k) = fnK m c (rowAt (tl t) p) k := by
  obtain ⟨h0, h1, -⟩ := idx_facts t
  unfold iblk fnK
  rw [View.read_apply]
  show V m c main_v16 _ = V m c main_v16 _
  refine congrArg (V m c main_v16) (funext fun a => Fin.ext ?_)
  match a with
  | ⟨0, _⟩ => show win0_0.index t 0 * 256 + 1 * p.val = (t.val % 32) * 256 + p.val; rw [h0]; omega
  | ⟨1, _⟩ => show win0_0.index t 1 * 128 + 1 * k.val = k.val; rw [h1]; omega

/-- The centre block at point `t` is rows `(t / 32)·4000 …` of the centres. -/
theorem blk_ctr (c : Dev nD) (t : Fin cfg0.N) (q : Fin 4000) (k : Fin 128) :
    (iblk m c 1 t : Vec Ideal S4000x128 .bf16) (ix2 q k) = ctrK m c (colAt (tl t) q) k := by
  obtain ⟨-, -, h0, h1, -⟩ := idx_facts t
  unfold iblk ctrK
  rw [View.read_apply]
  show V m c main_v17 _ = V m c main_v17 _
  refine congrArg (V m c main_v17) (funext fun a => Fin.ext ?_)
  match a with
  | ⟨0, _⟩ => show win0_1.index t 0 * 4000 + 1 * q.val = (t.val / 32) * 4000 + q.val; rw [h0]; omega
  | ⟨1, _⟩ => show win0_1.index t 1 * 128 + 1 * k.val = k.val; rw [h1]; omega

/-- The label block at point `t`. -/
theorem blk_lab (c : Dev nD) (t : Fin cfg0.N) (p : Fin 256) :
    (iblk m c 2 t : Vec Ideal S256x1 .i32) (ix2 p (0 : Fin 1)) = labK m c (rowAt (tl t) p) := by
  obtain ⟨-, -, -, -, h0, h1, -⟩ := idx_facts t
  unfold iblk labK
  rw [View.read_apply]
  show V m c main_v18 _ = V m c main_v18 _
  refine congrArg (V m c main_v18) (funext fun a => Fin.ext ?_)
  match a with
  | ⟨0, _⟩ => show win0_2.index t 0 * 256 + 1 * p.val = (t.val % 32) * 256 + p.val; rw [h0]; omega
  | ⟨1, _⟩ => show win0_2.index t 1 * 1 + 1 * 0 = 0; rw [h1]

/-- The own-centre distances' block at point `t`. -/
theorem blk_pos (c : Dev nD) (t : Fin cfg0.N) (p : Fin 256) :
    (iblk m c 3 t : Vec Ideal S256x1 .f32) (ix2 p (0 : Fin 1)) = posK m c (rowAt (tl t) p) := by
  obtain ⟨-, -, -, -, -, -, h0, h1, -⟩ := idx_facts t
  unfold iblk posK
  rw [View.read_apply]
  show V m c main_v19 _ = V m c main_v19 _
  refine congrArg (V m c main_v19) (funext fun a => Fin.ext ?_)
  match a with
  | ⟨0, _⟩ => show win0_3.index t 0 * 256 + 1 * p.val = (t.val % 32) * 256 + p.val; rw [h0]; omega
  | ⟨1, _⟩ => show win0_3.index t 1 * 1 + 1 * 0 = 0; rw [h1]

/-- An entry of point `t`'s tile of losses is the rectangle's entry. -/
theorem tLoss_eq (c : Dev nD) (t : Fin cfg0.N) (p : Fin 256) (q : Fin 4000) :
    tLoss (iblk m c 0 t) (iblk m c 1 t) (iblk m c 3 t) p q
      = Spec.loss (fnK m c) (ctrK m c) (posK m c) (rowAt (tl t) p) (colAt (tl t) q) := by
  unfold tLoss Spec.loss
  rw [blk_pos]
  exact congrArg (_ + ·) (Finset.sum_congr rfl fun k _ => by rw [blk_fn, blk_ctr])

/-- An entry of point `t`'s tile of counts is the rectangle's entry. -/
theorem tValid_eq (c : Dev nD) (t : Fin cfg0.N) (p : Fin 256) (q : Fin 4000) :
    tValid (grid0.coords t) (iblk m c 0 t) (iblk m c 1 t) (iblk m c 2 t) (iblk m c 3 t) p q
      = Spec.valid (fnK m c) (ctrK m c) (labK m c) (posK m c) (rowAt (tl t) p) (colAt (tl t) q) := by
  have hc : colWord (grid0.coords t) q = BitVec.ofNat 32 (colAt (tl t) q).val := by
    rw [colWord_eq, (idx_facts t).2.2.2.2.2.2.2.2]
    rfl
  unfold tValid Spec.valid
  rw [blk_lab, hc, tLoss_eq]

/-- The grid's counted loss is the rectangle's. -/
theorem gridT_eq (c : Dev nD) : gridT m c = Spec.total (fnK m c) (ctrK m c) (labK m c) (posK m c) := by
  unfold gridT Spec.total
  rw [sum_cast N_0.symm, ← sum_tiles]
  refine Finset.sum_congr rfl fun t _ => ?_
  unfold tileT
  refine Finset.sum_congr rfl fun p _ => Finset.sum_congr rfl fun q _ => ?_
  rw [tLoss_eq, tValid_eq]
  rfl

/-- The grid's count is the rectangle's. -/
theorem gridC_eq (c : Dev nD) : gridC m c = Spec.count (fnK m c) (ctrK m c) (labK m c) (posK m c) := by
  unfold gridC Spec.count
  rw [sum_cast N_0.symm, ← sum_tiles]
  refine Finset.sum_congr rfl fun t _ => ?_
  unfold tileC
  refine Finset.sum_congr rfl fun p _ => Finset.sum_congr rfl fun q _ => ?_
  rw [tValid_eq]
  rfl

/-- So the mean the last point writes is the specification's result on the region's four tables. -/
theorem mean_eq (c : Dev nD) : mean m c = Spec.result (fnK m c) (ctrK m c) (labK m c) (posK m c) := by
  unfold mean Spec.result
  rw [gridT_eq, gridC_eq]

end Cert.KBlocks

end
-- ==== Proof.KFinal.lean ====
/-
  The kernel's result: what the region's one output array, and the scalar read out of it, hold after the run.

  The output window is a single 1 × 1 block that only the last grid point writes back, and that block is the whole
  1 × 1 array; the line after the region reads the scalar out of it. So the program's result is the mean the last
  point computed, on every device.
-/
import proofs.«148868_j20684562497828_1_alg».proof.Proof.KBlocks
import Idealize.ShloMosaic.Lib.StableHlo.Run

noncomputable section

namespace Cert.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KInv Cert.KBlocks

variable (m : (ℓ : Loc nD τ sig) → Buf (Elt Ideal) ℓ) (ρ : Dev nD → PrngReg)

/-- The output array after the run: its one entry is the mean. -/
def G (c : Dev nD) : Buf (Elt Ideal) ((c : Thread nD τ).loc main_v20) := fun _ => mean m c

/-- The last point, as a point of the grid. -/
def tLast : Fin cfg0.N := ⟨159, by rw [show cfg0.N = 160 from N_0]; decide⟩

/-- What the one write-back writes is the output array's block. -/
theorem flushed_eq (c : Dev nD) (t : Fin cfg0.N) (hf : (cfg0.win 4).flush t = true) :
    (dats m 0 c).flushed 4 t = ((cfg0.win 4).blk t).view.read (Elt Ideal) (G m c) := by
  have h159 : t.val % 160 = 159 := (flush0_4 t).mp hf
  show (cfg0.win 4).cut (grid0.coords t) ((dats m 0 c).after 4 t) = _
  rw [after0_4, out_eq m c t h159]
  funext y
  rw [View.read_apply]
  rfl

/-- The last point's block covers the array. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨tLast, (flush0_4 tLast).mpr rfl, ?_⟩
  show i ∈ ((View.whole main_v20).slice (win0_4.rect tLast)).set
  rw [View.set_slice_whole, Rect.mem_set_unit]
  intro a
  match a with
  | ⟨0, _⟩ =>
    show win0_4.index tLast 0 * win0_4.size 0 ≤ (i 0 : Nat) ∧ (i 0 : Nat) < win0_4.index tLast 0 * win0_4.size 0 + win0_4.xsize (grid0.coords tLast) 0
    have h0 : (i 0 : Nat) < 1 := (i 0).isLt
    rw [show win0_4.index tLast 0 * win0_4.size 0 = 0 from by decide +kernel, show win0_4.xsize (grid0.coords tLast) 0 = 1 from by decide +kernel]; omega
  | ⟨1, _⟩ =>
    show win0_4.index tLast 1 * win0_4.size 1 ≤ (i 1 : Nat) ∧ (i 1 : Nat) < win0_4.index tLast 1 * win0_4.size 1 + win0_4.xsize (grid0.coords tLast) 1
    have h1 : (i 1 : Nat) < 1 := (i 1).isLt
    rw [show win0_4.index tLast 1 * win0_4.size 1 = 0 from by decide +kernel, show win0_4.xsize (grid0.coords tLast) 1 = 1 from by decide +kernel]; omega

/-- So the output array ends holding the mean. -/
theorem final (c : Dev nD) : (dats m 0 c).arrAt 4 cfg0.N = G m c :=
  (dats m 0 c).arrAt_eq_of_cover 4 (G m c) (flushed_eq m c) (cover c)

/-- The scalar the line after the region reads out of the array. -/
theorem tail_eq (c : Dev nD) :
    Pipeline.afterTail₀ cfgs (dats m) 0 (V0 m) [hostOps1] c main_v21 = fun _ => mean m c := by
  unfold Pipeline.afterTail₀
  show StableHlo.after hostOps1 _ (Proc.devRef .tc main_v21) = _
  after_results
  rw [(Pipeline.withArrays_arr spec0 launch0.win.arr_inj c _ _ 4).trans (final m c)]
  rfl

/-- THE RUN: every weakly fair execution ends with the result at the mean and the three arguments unchanged. -/
theorem run : θ_run defs (onTc (τ := τ) (main (F := Ideal))) ⟨m, fun _ => 0, ρ⟩ fun r => ∀ c : Dev nD,
      r.2.mem ((c.tc : Thread nD τ).loc main_v21) = (fun _ => mean m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KFinal

end
-- ==== Proof.RefSide.lean ====
/-
  The reference, read entry by entry on the extended reals.

  The reference normalises the features, gathers each row's own centre, and forms the whole 8192 × 20000 rectangle of
  losses  (M + pos b) − (1 − ⟨fn b, ctr c⟩); it counts the entries whose class is not the row's label and whose loss is
  positive, sums the counted losses, and divides. Read at an index, stage by stage, each entry is the specification's
  entry (the two loss formulas agree by the law of Proof/Consts.lean), a sum over all pairs (b, c) is the double sum, and the
  final select-divide is the specification's.
-/
import proofs.«148868_j20684562497828_1_alg».proof.Defs
import proofs.«148868_j20684562497828_1_alg».proof.Proof.RefReadP
import proofs.«148868_j20684562497828_1_alg».proof.Proof.Spec

noncomputable section

namespace Cert.RefSide

open Idealize.ShloMosaic Idealize.ShloMosaic.ValueIdx Cert.ReferenceIdeal Cert.ReferenceIdeal.ReadP Cert.Consts

variable (x0 : (⟨S8192x128, .f32⟩ : BufTy).Contents (Elt Ideal)) (x1 : (⟨S20000x128, .f32⟩ : BufTy).Contents (Elt Ideal))
  (x2 : (⟨S8192, .i32⟩ : BufTy).Contents (Elt Ideal))

/-- The four tables, as the reference computes them from its arguments: the normalised features (stage %4), the
    centres (argument 1), the labels (argument 2), the own-centre distances (stage %15). -/
def fnR (b : Fin 8192) (k : Fin 128) : EReal := val_main_v4 (F := Ideal) x0 (ix2 b k)
def ctrR (c : Fin 20000) (k : Fin 128) : EReal := x1 (ix2 c k)
def labR (b : Fin 8192) : BitVec 32 := x2 (ix1 b)
def posR (b : Fin 8192) : EReal := val_main_v15 (F := Ideal) x0 x1 x2 (ix1 b)

/-- A one-bit word as a float is the word's choice between one and zero. -/
theorem uitofp_bit (w : BitVec 1) : (FloatOps.uitofp (F := Ideal) .f32 w : EReal) = Scalar.select w (1 : EReal) 0 := by
  have hw : w = 0#1 ∨ w = 1#1 := by revert w; decide
  rcases hw with rfl | rfl
  · rw [select_zero]; show (((0#1 : BitVec 1).toNat : ℝ) : EReal) = 0; simp
  · rw [select_one]; show (((1#1 : BitVec 1).toNat : ℝ) : EReal) = 1; simp

/-- The rectangle of losses at (b, c). -/
theorem loss_entry (b : Fin 8192) (c : Fin 20000) :
    val_main_v23 (F := Ideal) x0 x1 x2 (ix2 b c) = Spec.loss (fnR x0) (ctrR x1) (posR x0 x1 x2) b c := by
  rw [val_main_v23_apply, val_main_v22_apply, val_main_v21_apply, val_main_v20_apply, val_main_cst_4_apply, val_main_v19_apply,
    val_main_v18_apply, val_main_v17_apply, val_main_cst_3_apply, val_main_v16_apply]
  have e1 : idx_main_v19 (idx_main_v22 (ix2 b c)) = ix1 b := funext fun a => Fin.ext (by match a with | ⟨0, _⟩ => rfl)
  have e2 : ∀ k : Fin 128, lidx_main_v16 (ix2 b c) k = ix2 b k := fun k => funext fun a => Fin.ext (by
    match a with
    | ⟨0, _⟩ => rfl
    | ⟨1, _⟩ => rfl)
  have e3 : ∀ k : Fin 128, ridx_main_v16 (ix2 b c) k = ix2 c k := fun k => funext fun a => Fin.ext (by
    match a with
    | ⟨0, _⟩ => rfl
    | ⟨1, _⟩ => rfl)
  simp only [e1, e2, e3, Ideal.subf_def, Ideal.addf_def, Ideal.ofBits_def, ofBits_margin, ofBits_one]
  exact (fold_law _ _).symm

/-- The rectangle of counts at (b, c). -/
theorem valid_entry (b : Fin 8192) (c : Fin 20000) :
    val_main_v33 (F := Ideal) x0 x1 x2 (ix2 b c) = Spec.valid (fnR x0) (ctrR x1) (labR x2) (posR x0 x1 x2) b c := by
  rw [val_main_v33_apply, val_main_v32_apply, val_main_v29_apply, val_main_v27_apply, val_main_v25_apply, val_main_v28_apply,
    val_main_v26_apply, val_main_v24_apply, val_main_v31_apply, val_main_v30_apply, val_main_cst_5_apply, loss_entry, uitofp_bit]
  have e1 : idx_main_v25 (idx_main_v27 (ix2 b c)) = ix1 b := funext fun a => Fin.ext (by match a with | ⟨0, _⟩ => rfl)
  have e2 : ((idx_main_v26 (idx_main_v28 (ix2 b c))) 0).val = c.val := rfl
  rw [e1, e2]
  simp only [Ideal.ofBits_def, Ideal.ofBits_zero_f32, Ideal.cmpf_def]
  rfl

/-- The count. -/
theorem count_eq (i : S_.Idx) :
    val_main_v34 (F := Ideal) x0 x1 x2 i = Spec.count (fnR x0) (ctrR x1) (labR x2) (posR x0 x1 x2) := by
  rw [val_main_v34_apply, val_main_cst_6_apply, Ideal.ofBits_def, Ideal.ofBits_zero_f32, zero_add, sum_idx2]
  exact Finset.sum_congr rfl fun b _ => Finset.sum_congr rfl fun c _ => valid_entry x0 x1 x2 b c

/-- The counted losses' sum. -/
theorem total_eq (i : S_.Idx) :
    val_main_v36 (F := Ideal) x0 x1 x2 i = Spec.total (fnR x0) (ctrR x1) (labR x2) (posR x0 x1 x2) := by
  rw [val_main_v36_apply, val_main_cst_7_apply, Ideal.ofBits_def, Ideal.ofBits_zero_f32, zero_add, sum_idx2]
  refine Finset.sum_congr rfl fun b _ => Finset.sum_congr rfl fun c _ => ?_
  rw [val_main_v35_apply, loss_entry, valid_entry]
  rfl

/-- THE REFERENCE'S RESULT is the specification's, on the reference's four tables. -/
theorem result_eq : val_main_v39 (F := Ideal) x0 x1 x2 = fun _ => Spec.result (fnR x0) (ctrR x1) (labR x2) (posR x0 x1 x2) := by
  funext i
  rw [val_main_v39_apply, val_main_v37_apply, val_main_v38_apply, val_main_cst_9_apply, val_main_cst_8_apply, count_eq, total_eq]
  simp only [Ideal.ofBits_def, Ideal.ofBits_zero_f32, Ideal.cmpf_def, Ideal.hostDivf_def]
  rfl

end Cert.RefSide

end
-- ==== Proof.Bridge.lean ====
/-
  The region's four tables are the reference's.

  The lines of the kernel's program before its region are the reference's own first lines — normalise the features,
  wrap negative labels, gather each row's centre, take the own-centre distance — followed by two changes of float format
  (the identity on the extended reals) and two re-layings of a length-8192 vector as an 8192 × 1 column. So the arrays the
  region's windows stage hold, entry by entry, the reference's normalised features, the centres, the labels and the
  reference's own-centre distances, of the same arguments.
-/
import proofs.«148868_j20684562497828_1_alg».proof.Proof.KFinal
import proofs.«148868_j20684562497828_1_alg».proof.Proof.RefSide

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen Cert.KBlocks

variable (m : (ℓ : Loc nD τ sig) → Buf (Elt Ideal) ℓ)

/-- The kernel's three arguments on core `c`. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)

/-- The staged feature array is the reference's normalised features (the change to bf16 is the identity here). -/
theorem V16 (c : Dev nD) : (V m c main_v16 : S8192x128.Idx → EReal) = fun j => Cert.ReferenceIdeal.ReadP.val_main_v4 (F := Ideal) (a0 m c) j := by
  dsimp only [V, V0]
  simp only [hostOps0, hostOps0_1, List.flatten_cons, List.flatten_nil, List.append_nil, List.cons_append, List.nil_append]
  after_results_simp
  rfl

/-- The staged centre array is the centres argument. -/
theorem V17 (c : Dev nD) : (V m c main_v17 : S20000x128.Idx → EReal) = fun j => (a1 m c) j := by
  dsimp only [V, V0]
  simp only [hostOps0, hostOps0_1, List.flatten_cons, List.flatten_nil, List.append_nil, List.cons_append, List.nil_append]
  after_results_simp
  rfl

/-- The staged label column is the labels argument re-laid as a column. -/
theorem V18 (c : Dev nD) : (V m c main_v18 : S8192x1.Idx → BitVec 32) = shapeCast S8192x1 (a2 m c) shapeCasts_S8192_S8192x1 := by
  dsimp only [V, V0]
  simp only [hostOps0, hostOps0_1, List.flatten_cons, List.flatten_nil, List.append_nil, List.cons_append, List.nil_append]
  after_results_simp
  rfl

/-- The staged distance column is the reference's own-centre distances re-laid as a column. -/
theorem V19 (c : Dev nD) : (V m c main_v19 : S8192x1.Idx → EReal)
    = shapeCast S8192x1 (fun j => Cert.ReferenceIdeal.ReadP.val_main_v15 (F := Ideal) (a0 m c) (a1 m c) (a2 m c) j) shapeCasts_S8192_S8192x1 := by
  dsimp only [V, V0]
  simp only [hostOps0, hostOps0_1, List.flatten_cons, List.flatten_nil, List.append_nil, List.cons_append, List.nil_append]
  after_results_simp
  rfl

/-- A length-8192 vector re-laid as a column, at row `b`. -/
theorem column_apply {α : Type} (x : S8192.Idx → α) (b : Fin 8192) :
    shapeCast S8192x1 x shapeCasts_S8192_S8192x1 (ix2 b (0 : Fin 1)) = x (ix1 b) :=
  shapeCast_apply _ shapeCasts_S8192_S8192x1 (ix2 b (0 : Fin 1)) (ix1 b) (by
    rw [Shape.rowMajor_val_one, Shape.rowMajor_val_two]; show b.val = b.val * 1 + 0; omega)

theorem fn_eq (c : Dev nD) : fnK m c = RefSide.fnR (a0 m c) := by
  funext b k; unfold fnK RefSide.fnR; rw [V16]
theorem ctr_eq (c : Dev nD) : ctrK m c = RefSide.ctrR (a1 m c) := by
  funext cl k; unfold ctrK RefSide.ctrR; rw [V17]
theorem lab_eq (c : Dev nD) : labK m c = RefSide.labR (a2 m c) := by
  funext b; unfold labK RefSide.labR; rw [V18, column_apply]
theorem pos_eq (c : Dev nD) : posK m c = RefSide.posR (a0 m c) (a1 m c) (a2 m c) := by
  funext b; unfold posK RefSide.posR; rw [V19, column_apply]

/-- The kernel's result is the reference's result term of the same arguments. -/
theorem mean_eq_ref (c : Dev nD) :
    (fun _ => KInv.mean m c : S_.Idx → EReal) = Cert.ReferenceIdeal.ReadP.val_main_v39 (F := Ideal) (a0 m c) (a1 m c) (a2 m c) := by
  rw [RefSide.result_eq, mean_eq, fn_eq, ctr_eq, lab_eq, pos_eq]

end Cert.Bridge

end
-- ==== Proof.lean ====
/-
  The proof of `Cert.Claim`: a margin loss over all (row, class) pairs, tiled 256 × 4000 over a 5 × 32 grid with two
  running accumulators, against the untiled jnp reference.

  Both programs normalise 8192 feature rows, take each row's distance to its own class centre, and for every row b and
  class c form the loss  M + pos b − (1 − ⟨fn b, ctr c⟩)  (M the margin); an entry counts when c is not b's label and its loss
  is positive; the result is the mean counted loss, or 0 if nothing counts. The kernel folds the two constants into one
  named constant κ = M − 1 and sweeps the rectangle tile by tile, adding each tile's counted loss and count to two
  accumulators it carries across the grid and dividing at the last point.

  On the extended reals:
    * the two loss formulas agree entry by entry — addition is commutative and associative, negation distributes over
      1 − s because 1 is real (Proof/Consts.lean); no finiteness of the inputs is used;
    * the accumulators after point n hold the first n + 1 tiles' sums (induction over the grid, Proof/KInv.lean), the tiles'
      sums add up to the rectangle's (Proof/GridSums.lean, Proof/KBlocks.lean), and the last point's one write-back is the
      whole 1 × 1 output array (Proof/KFinal.lean);
    * the reference's result, read stage by stage, is the same function of the same four tables (Proof/RefSide.lean), and
      the arrays the kernel's region stages are those tables (Proof/Bridge.lean).
  The three frames are the programs' runs with the result dropped; the one rewrite of the idealization is the named
  constant's statement.
-/
import proofs.«148868_j20684562497828_1_alg».proof.Defs
import proofs.«148868_j20684562497828_1_alg».proof.Proof.Gen.Kernel
import proofs.«148868_j20684562497828_1_alg».proof.Proof.Gen.Kernel.Skeleton
import proofs.«148868_j20684562497828_1_alg».proof.Proof.Gen.Kernel.Launch
import proofs.«148868_j20684562497828_1_alg».proof.Proof.Gen.Kernel.Points
import proofs.«148868_j20684562497828_1_alg».proof.Proof.Gen.Kernel.Frame
import proofs.«148868_j20684562497828_1_alg».proof.Proof.Gen.KernelIdeal
import proofs.«148868_j20684562497828_1_alg».proof.Proof.Gen.KernelIdeal.Skeleton
import proofs.«148868_j20684562497828_1_alg».proof.Proof.Gen.KernelIdeal.Launch
import proofs.«148868_j20684562497828_1_alg».proof.Proof.Gen.KernelIdeal.Points
import proofs.«148868_j20684562497828_1_alg».proof.Proof.Gen.KernelIdeal.Frame
import proofs.«148868_j20684562497828_1_alg».proof.Proof.Gen.ReferenceIdeal
import proofs.«148868_j20684562497828_1_alg».proof.Proof.Gen.Pre_finite_inputs
import proofs.«148868_j20684562497828_1_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization's one rewrite: the folded constant is named, and the name denotes `M − 1`. -/
theorem preserves : Cert.preserves_Kernel_KernelIdeal :=
  IdealRules.named_const.statement Cert.KernelIdeal.κ "margin_minus_one" .f32 0xBF5998DD#32 ((-57041779 / 67108864 : ℝ) : EReal) rfl

/-- From agreeing arguments both idealized programs end with the mean counted loss. -/
theorem algebraic : Cert.algebraic_KernelIdeal_ReferenceIdeal := by
  intro m ρ m' ρ' _ hagree
  refine ⟨fun c => (fun _ => Cert.KInv.mean m c), Cert.KFinal.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq, (hagree c).1, (hagree c).2.1, (hagree c).2.2]
  exact (Cert.Bridge.mean_eq_ref m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
